-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S64x32 : Shape := ⟨2, ![64, 32]⟩
abbrev S64x64 : Shape := ⟨2, ![64, 64]⟩
abbrev S16x64 : Shape := ⟨2, ![16, 64]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  main_v23

def fn {F : FTy → Type} [FloatOps F] (main_arg0 : FVec F S1048576x32 .f32) (main_arg1 : FVec F S64x32 .f32) (main_arg2 : FVec F S64x64 .f32) (main_arg3 : FVec F S64x64 .f32) (main_arg4 : FVec F S16x64 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S1048576x32 : Shape := ⟨2, ![1048576, 32]⟩
abbrev S64x32 : Shape := ⟨2, ![64, 32]⟩
abbrev S64x64 : Shape := ⟨2, ![64, 64]⟩
abbrev S16x64 : Shape := ⟨2, ![16, 64]⟩
abbrev S32x64 : Shape := ⟨2, ![32, 64]⟩
abbrev S64x16 : Shape := ⟨2, ![64, 16]⟩
abbrev S1048576x16 : Shape := ⟨2, ![1048576, 16]⟩
abbrev S8192x32 : Shape := ⟨2, ![8192, 32]⟩
abbrev S8192x16 : Shape := ⟨2, ![8192, 16]⟩
abbrev S8192x64 : Shape := ⟨2, ![8192, 64]⟩

abbrev nBuf : Space → Nat
  | .hbm => 12
  | .vmem => 6
  | .smem => 0
  | _ => 0

abbrev bufTy : (tb : Table) → Fin (tcTables nBuf tb) → BufTy
  | .hbm, ⟨0, _⟩ => ⟨S1048576x32, .f32⟩
  | .hbm, ⟨1, _⟩ => ⟨S64x32, .f32⟩
  | .hbm, ⟨2, _⟩ => ⟨S64x64, .f32⟩
  | .hbm, ⟨3, _⟩ => ⟨S64x64, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S32x64, .f32⟩
  | .hbm, ⟨8, _⟩ => ⟨S32x64, .bf16⟩
  | .hbm, ⟨9, _⟩ => ⟨S64x16, .f32⟩
  | .hbm, ⟨10, _⟩ => ⟨S64x16, .bf16⟩
  | .hbm, ⟨11, _⟩ => ⟨S1048576x16, .f32⟩
  | .local _ .vmem, ⟨0, _⟩ => ⟨S8192x32, .f32⟩
  | .local _ .vmem, ⟨1, _⟩ => ⟨S8192x32, .f32⟩
  | .local _ .vmem, ⟨2, _⟩ => ⟨S32x64, .bf16⟩
  | .local _ .vmem, ⟨3, _⟩ => ⟨S64x16, .bf16⟩
  | .local _ .vmem, ⟨4, _⟩ => ⟨S8192x16, .f32⟩
  | .local _ .vmem, ⟨5, _⟩ => ⟨S8192x16, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x32_S32x64_1_0 : S64x32.Transposes [1, 0] S32x64
  bitsLt_bf16_f32 : FTy.bits .bf16 < FTy.bits .f32
  transposes_S16x64_S64x16_1_0 : S16x64.Transposes [1, 0] S64x16
  inb_S8192x32_S8192x32_0_0 : ∀ a, (![0, 0] : Fin 2 → Nat) a + S8192x32.size a ≤ S8192x32.size a
  h_S8192x32 : 0 < S8192x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S8192x16_S8192x16_0_0 : ∀ a, (![0, 0] : Fin 2 → Nat) a + S8192x16.size a ≤ S8192x16.size a
  h_S8192x16 : 0 < S8192x16.numel
  dot_S16x64_S64x64_S16x64_1_0_0_1_n_n_wf : DotDims.WF S16x64 S64x64 S16x64 [1] [0] [0] [1] [] []
  dot_S8192x32_S32x64_S8192x64_1_0_0_1_n_n_wf : DotDims.WF S8192x32 S32x64 S8192x64 [1] [0] [0] [1] [] []
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .bf16 = 32 ∨ (Rect.block (s := S64x16) S64x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x16.size a ≤ S1048576x16.size a
  hwx0_3 : ∀ i : grid0.Coords, EltTy.bits .f32 = 32 ∨ (Rect.block (s := S1048576x16) S8192x16.size (cc0_transform_3 i) (hinb0_3 i)).WholeWords (EltTy.packing .f32)

variable [Facts₀]

def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S64x32 : Shape := ⟨2, ![64, 32]⟩
abbrev S64x64 : Shape := ⟨2, ![64, 64]⟩
abbrev S16x64 : Shape := ⟨2, ![16, 64]⟩
abbrev S32x64 : Shape := ⟨2, ![32, 64]⟩
abbrev S1048576x64 : Shape := ⟨2, ![1048576, 64]⟩
abbrev S_ : Shape := ⟨0, ![]⟩
abbrev S64x16 : Shape := ⟨2, ![64, 16]⟩
abbrev S1048576x16 : Shape := ⟨2, ![1048576, 16]⟩

abbrev nBuf : Space → Nat
  | .hbm => 19
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S64x32, .f32⟩
  | .hbm, ⟨2, _⟩ => ⟨S64x64, .f32⟩
  | .hbm, ⟨3, _⟩ => ⟨S64x64, .f32⟩
  | .hbm, ⟨4, _⟩ => ⟨S16x64, .f32⟩
  | .hbm, ⟨5, _⟩ => ⟨S32x64, .f32⟩
  | .hbm, ⟨6, _⟩ => ⟨S1048576x64, .f32⟩
  | .hbm, ⟨7, _⟩ => ⟨S_, .f32⟩
  | .hbm, ⟨8, _⟩ => ⟨S1048576x64, .f32⟩
  | .hbm, ⟨9, _⟩ => ⟨S1048576x64, .f32⟩
  | .hbm, ⟨10, _⟩ => ⟨S64x64, .f32⟩
  | .hbm, ⟨11, _⟩ => ⟨S1048576x64, .f32⟩
  | .hbm, ⟨12, _⟩ => ⟨S64x64, .f32⟩
  | .hbm, ⟨13, _⟩ => ⟨S1048576x64, .f32⟩
  | .hbm, ⟨14, _⟩ => ⟨S64x16, .f32⟩
  | .hbm, ⟨15, _⟩ => ⟨S1048576x16, .f32⟩
  | .hbm, ⟨16, _⟩ => ⟨S_, .f32⟩
  | .hbm, ⟨17, _⟩ => ⟨S1048576x16, .f32⟩
  | .hbm, ⟨18, _⟩ => ⟨S1048576x16, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  transposes_S64x32_S32x64_1_0 : S64x32.Transposes [1, 0] S32x64
  bcast_S_S1048576x64 : S_.BroadcastsInDim S1048576x64 (![] : Fin 0 → Fin S1048576x64.rank)
  transposes_S64x64_S64x64_1_0 : S64x64.Transposes [1, 0] S64x64
  transposes_S16x64_S64x16_1_0 : S16x64.Transposes [1, 0] S64x16
  bcast_S_S1048576x16 : S_.BroadcastsInDim S1048576x16 (![] : Fin 0 → Fin S1048576x16.rank)
  dot_S1048576x32_S32x64_S1048576x64_1_0_0_1_n_n_wf : DotDims.WF S1048576x32 S32x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf

class Facts : Prop extends Facts₀ where

variable [Facts]
-- ==== Proof.LibGcnSum.lean ====
/-
  Sums of real-valued extended reals: the distributive law a graph convolution's two scalings need, closure of
  "is a real number" under the operations of a dense layer (sums, products, maxima, matrix products, scatter-adds),
  and the node degree with its reciprocal square root.
-/
import Idealize.ShloMosaic.PureOps.Ideal
import Idealize.ShloMosaic.Lib.ValueIdx

noncomputable section

open scoped BigOperators

namespace GcnLib

open Idealize.ShloMosaic

/-- An extended real that is a real number. -/
abbrev IsReal (x : EReal) : Prop := ∃ r : ℝ, x = (r : EReal)

/-! ## Closure -/

/-- A real number, read as an extended real, is real-valued. -/
theorem isReal_coe (r : ℝ) : IsReal (r : EReal) := ⟨r, rfl⟩
/-- Zero is real-valued. -/
theorem isReal_zero : IsReal (0 : EReal) := ⟨0, rfl⟩
/-- One is real-valued. -/
theorem isReal_one : IsReal (1 : EReal) := ⟨1, rfl⟩
/-- A natural number is real-valued. -/
theorem isReal_natCast (n : ℕ) : IsReal ((n : ℕ) : EReal) := ⟨(n : ℝ), by norm_cast⟩
/-- The sum of two real-valued extended reals is real-valued. -/
theorem isReal_add {x y : EReal} (hx : IsReal x) (hy : IsReal y) : IsReal (x + y) := by
  obtain ⟨a, rfl⟩ := hx; obtain ⟨b, rfl⟩ := hy; exact ⟨a + b, (EReal.coe_add a b).symm⟩
/-- The product of two real-valued extended reals is real-valued. -/
theorem isReal_mul {x y : EReal} (hx : IsReal x) (hy : IsReal y) : IsReal (x * y) := by
  obtain ⟨a, rfl⟩ := hx; obtain ⟨b, rfl⟩ := hy; exact ⟨a * b, (EReal.coe_mul a b).symm⟩
/-- The negative of a real-valued extended real is real-valued. -/
theorem isReal_neg {x : EReal} (hx : IsReal x) : IsReal (-x) := by
  obtain ⟨a, rfl⟩ := hx; exact ⟨-a, (EReal.coe_neg a).symm⟩
/-- The maximum of two real-valued extended reals is real-valued. -/
theorem isReal_max {x y : EReal} (hx : IsReal x) (hy : IsReal y) : IsReal (max x y) := by
  rcases max_choice x y with h | h <;> rw [h] <;> assumption
/-- The minimum of two real-valued extended reals is real-valued. -/
theorem isReal_min {x y : EReal} (hx : IsReal x) (hy : IsReal y) : IsReal (min x y) := by
  rcases min_choice x y with h | h <;> rw [h] <;> assumption
/-- The rectifier max(x, 0) of a real-valued extended real is real-valued. -/
theorem isReal_relu {x : EReal} (hx : IsReal x) : IsReal (max x 0) := isReal_max hx isReal_zero

section Sums
variable {ι : Type*}

/-- A finite sum of reals, read in the extended reals, is the extended-real sum. -/
theorem coe_finset_sum (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real-valued extended reals is real-valued. -/
theorem isReal_finset_sum (s : Finset ι) (f : ι → EReal) (hf : ∀ k ∈ s, IsReal (f k)) : IsReal (∑ k ∈ s, f k) := by
  classical
  induction s using Finset.induction_on with
  | empty => exact ⟨0, by simp⟩
  | insert a s ha ih =>
    rw [Finset.sum_insert ha]
    exact isReal_add (hf a (Finset.mem_insert_self a s)) (ih fun k hk => hf k (Finset.mem_insert_of_mem hk))

/-- A finite sum of products of real-valued extended reals (one entry of a matrix product) is real-valued. -/
theorem isReal_sum_mul (s : Finset ι) (f g : ι → EReal) (hf : ∀ k, IsReal (f k)) (hg : ∀ k, IsReal (g k)) :
    IsReal (∑ k ∈ s, f k * g k) :=
  isReal_finset_sum s _ fun k _ => isReal_mul (hf k) (hg k)

/-- THE DISTRIBUTIVE LAW: scaling each summand h k by ds k before the sum and the sum by dn after it is the sum of the
    summands scaled by the products ds k * dn. In the extended reals this needs every factor to be a real number. -/
theorem mul_sum_mul_eq (s : Finset ι) (dn : EReal) (h ds : ι → EReal) (hdn : IsReal dn)
    (hh : ∀ k, IsReal (h k)) (hds : ∀ k, IsReal (ds k)) :
    dn * ∑ k ∈ s, (h k * ds k) = ∑ k ∈ s, h k * (ds k * dn) := by
  obtain ⟨a, rfl⟩ := hdn
  choose hr hhr using hh
  choose dr hdr using hds
  simp only [hhr, hdr, ← EReal.coe_mul, ← coe_finset_sum]
  congr 1
  rw [Finset.mul_sum]
  exact Finset.sum_congr rfl fun k _ => by ring

/-- The distributive law with the outer factor read per summand: dd k is dn for every k of the summation set (an
    edge's target-node factor, on the edges whose target is the node summed at). -/
theorem mul_sum_mul_eq_of_eq (s : Finset ι) (dn : EReal) (h ds dd : ι → EReal) (hdn : IsReal dn)
    (hh : ∀ k, IsReal (h k)) (hds : ∀ k, IsReal (ds k)) (hdd : ∀ k ∈ s, dd k = dn) :
    dn * ∑ k ∈ s, (h k * ds k) = ∑ k ∈ s, h k * (ds k * dd k) := by
  rw [mul_sum_mul_eq s dn h ds hdn hh hds]
  exact Finset.sum_congr rfl fun k hk => by rw [hdd k hk]

/-- The law as the two programs meet it, each scatter-add started from a zero operand element: the target node's
    factor times (zero plus the sum of the pre-scaled rows) is zero plus the sum of the rows scaled per edge. -/
theorem mul_zero_add_sum_eq (s : Finset ι) (dn : EReal) (h ds dd : ι → EReal) (hdn : IsReal dn)
    (hh : ∀ k, IsReal (h k)) (hds : ∀ k, IsReal (ds k)) (hdd : ∀ k ∈ s, dd k = dn) :
    dn * (0 + ∑ k ∈ s, (h k * ds k)) = 0 + ∑ k ∈ s, h k * (ds k * dd k) := by
  rw [zero_add, zero_add]
  exact mul_sum_mul_eq_of_eq s dn h ds dd hdn hh hds hdd

/-- The same law with the factors in the order (ds k * h k) * dn on the left. -/
theorem sum_mul_mul_eq (s : Finset ι) (dn : EReal) (h ds : ι → EReal) (hdn : IsReal dn)
    (hh : ∀ k, IsReal (h k)) (hds : ∀ k, IsReal (ds k)) :
    (∑ k ∈ s, (ds k * h k)) * dn = ∑ k ∈ s, (ds k * dn) * h k := by
  obtain ⟨a, rfl⟩ := hdn
  choose hr hhr using hh
  choose dr hdr using hds
  simp only [hhr, hdr, ← EReal.coe_mul, ← coe_finset_sum]
  congr 1
  rw [Finset.sum_mul]
  exact Finset.sum_congr rfl fun k _ => by ring

end Sums

/-! ## The operations of a layer -/

/-- A matrix product with a real-valued accumulator and real-valued operands is real-valued at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ i, IsReal (acc i))
    (j : so.Idx) : IsReal (Ideal.matmul d lhs rhs acc j) :=
  isReal_add (ha j) (isReal_finset_sum _ _ fun k _ => isReal_mul (hl _) (hr _))

/-- A scatter-add of real-valued updates into a real-valued operand is real-valued at every index. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  isReal_add (hx i) (isReal_finset_sum _ _ fun j _ => hu j)

/-! ## The degree and its reciprocal square root -/

/-- Counting: zero plus a one for every element of a finite set is the set's cardinality, a real number. -/
theorem zero_add_sum_one {ι : Type*} (s : Finset ι) :
    (0 : EReal) + ∑ _j ∈ s, (1 : EReal) = ((s.card : ℝ) : EReal) := by
  rw [zero_add]
  have := coe_finset_sum s (fun _ => (1 : ℝ))
  simp only [Finset.sum_const, nsmul_eq_mul, mul_one] at this
  rw [this]
  simp

/-- The degree is real-valued. -/
theorem isReal_zero_add_sum_one {ι : Type*} (s : Finset ι) : IsReal ((0 : EReal) + ∑ _j ∈ s, (1 : EReal)) :=
  ⟨_, zero_add_sum_one s⟩

/-- The normaliser of a real degree r: the reciprocal square root where r is positive, zero elsewhere. -/
theorem select_rsqrt_coe (r : ℝ) :
    Scalar.select (Ideal.cmp .ogt (r : EReal) 0) (Ideal.rsqrt (r : EReal)) (0 : EReal)
      = ((if 0 < r then (Real.sqrt r)⁻¹ else 0 : ℝ) : EReal) := by
  by_cases h : 0 < r
  · have hc : Ideal.cmp .ogt (r : EReal) 0 = 1#1 := by
      unfold Ideal.cmp
      have : (0 : EReal) < (r : EReal) := by exact_mod_cast h
      simp [this]
    rw [hc, ValueIdx.select_one, if_pos h, Ideal.rsqrt_coe, if_neg (not_lt.mpr h.le), if_neg h.ne']
  · have hc : Ideal.cmp .ogt (r : EReal) 0 = 0#1 := by
      unfold Ideal.cmp
      have : ¬ (0 : EReal) < (r : EReal) := by exact_mod_cast h
      simp [this]
    rw [hc, ValueIdx.select_zero, if_neg h]
    simp

/-- For a real-valued degree the normaliser (reciprocal square root where positive, else zero) is real-valued. -/
theorem isReal_select_rsqrt {deg : EReal} (h : IsReal deg) :
    IsReal (Scalar.select (Ideal.cmp .ogt deg 0) (Ideal.rsqrt deg) (0 : EReal)) := by
  obtain ⟨r, rfl⟩ := h
  exact ⟨_, select_rsqrt_coe r⟩

/-- The normaliser as a program computes it on vectors — the select, on "degree greater than a zero vector", between
    the host's reciprocal square root of the degree and a zero vector — read at an index. -/
theorem select_cmpf_rsqrt_apply {s : Shape} {φ : FTy} (deg z z' : FVec Ideal s φ) (i : s.Idx)
    (hz : z i = 0) (hz' : z' i = 0) :
    select (cmpf .ogt deg z) (Host.rsqrt deg) z' i
      = Scalar.select (Ideal.cmp .ogt (deg i) 0) (Ideal.rsqrt (deg i)) (0 : EReal) := by
  show Scalar.select (FloatOps.cmpf .ogt (deg i) (z i)) (FloatOps.hostUnary .rsqrt (deg i)) (z' i) = _
  rw [hz, hz']; rfl

/-- That vector normaliser is real-valued wherever the degree is. -/
theorem isReal_select_cmpf_rsqrt {s : Shape} {φ : FTy} (deg z z' : FVec Ideal s φ) (i : s.Idx)
    (hz : z i = 0) (hz' : z' i = 0) (h : IsReal (deg i)) :
    IsReal (select (cmpf .ogt deg z) (Host.rsqrt deg) z' i) := by
  rw [select_cmpf_rsqrt_apply deg z z' i hz hz']
  exact isReal_select_rsqrt h

/-- The f32 pattern of all zero bits is the extended real zero. -/
theorem ofBits_zero_f32 : Ideal.ofBits .f32 0x00000000#32 = 0 := by simp [Ideal.ofBits, Ideal.ieee]

end GcnLib

end
-- ==== Proof.LibMatChain.lean ====
/-
  Re-association of a chain of matrix products applied to a row vector, at the extended reals.

  Take a row h of length J, matrices w1 (B × J) and w2 (A × B), and one row w3 (length A) of a last matrix, all with
  real-number entries. Applying the matrices one after the other,
      Σ_a (Σ_b (Σ_j h j · w1 b j) · w2 a b) · w3 a,
  is applying their product once,
      Σ_j h j · (Σ_b (Σ_a w3 a · w2 a b) · w1 b j):
  both are the triple sum Σ_{a,b,j} h j · w1 b j · w2 a b · w3 a. The step uses distributivity, which the extended
  reals lose at the infinities (x · (a + b) ≠ x · a + x · b when a = +∞, b = -∞), hence the hypothesis that every
  entry is a real number. The law is proved in ℝ and carried over by the coercion.
-/
import proofs.«143241_j37409165148610_2_alg».proof.Proof.LibGcnSum

noncomputable section

open scoped BigOperators

namespace MatChain

open GcnLib

variable {J B A : Type*} [Fintype J] [Fintype B] [Fintype A]

/-- A triple sum summed in the opposite order of its three indices. -/
theorem sum3_swap {M : Type*} [AddCommMonoid M] (f : A → B → J → M) :
    ∑ a, ∑ b, ∑ j, f a b j = ∑ j, ∑ b, ∑ a, f a b j :=
  Finset.sum_comm.trans ((Finset.sum_congr rfl fun _ _ => Finset.sum_comm).trans Finset.sum_comm)

/-- The chain law over the reals. -/
theorem chain3_real (h : J → ℝ) (w1 : B → J → ℝ) (w2 : A → B → ℝ) (w3 : A → ℝ) :
    ∑ a, (∑ b, (∑ j, h j * w1 b j) * w2 a b) * w3 a = ∑ j, h j * ∑ b, (∑ a, w3 a * w2 a b) * w1 b j := by
  simp only [Finset.sum_mul, Finset.mul_sum]
  refine (sum3_swap _).trans ?_
  exact Finset.sum_congr rfl fun j _ => Finset.sum_congr rfl fun b _ => Finset.sum_congr rfl fun a _ => by ring

/-- THE CHAIN LAW at the extended reals, for real-valued entries: three matrices applied one after the other to a row
    are their product applied once. -/
theorem chain3 (h : J → EReal) (w1 : B → J → EReal) (w2 : A → B → EReal) (w3 : A → EReal)
    (hh : ∀ j, IsReal (h j)) (h1 : ∀ b j, IsReal (w1 b j)) (h2 : ∀ a b, IsReal (w2 a b)) (h3 : ∀ a, IsReal (w3 a)) :
    ∑ a, (∑ b, (∑ j, h j * w1 b j) * w2 a b) * w3 a = ∑ j, h j * ∑ b, (∑ a, w3 a * w2 a b) * w1 b j := by
  choose hr hhr using hh
  choose r1 hr1 using h1
  choose r2 hr2 using h2
  choose r3 hr3 using h3
  simp only [hhr, hr1, hr2, hr3, ← EReal.coe_mul, ← coe_finset_sum]
  rw [chain3_real]

end MatChain

end
-- ==== Proof.MlpSpec.lean ====
/-
  The network both programs compute, index by index, at the extended reals.

  Inputs: x [1048576, 32], W0 [64, 32], W1 [64, 64], W2 [64, 64], W3 [16, 64] (weights stored [out, in]).
  The hidden layer is  h(r, j) = max(Σ_k x(r, k) · W0(j, k), 0).
  Layer by layer the output is        max(Σ_a (Σ_b (Σ_j h(r, j) · W1(b, j)) · W2(a, b)) · W3(q, a), 0);
  with the three linear layers collapsed into  W321(q, j) = Σ_b (Σ_a W3(q, a) · W2(a, b)) · W1(b, j)  it is
                                      max(Σ_j h(r, j) · W321(q, j), 0).
  The two agree when every input entry is a real number: the chain law for matrix products, which needs
  distributivity and so fails at the infinities. The zero of the rectifiers is kept as the f32 word of all zero bits,
  the same word in both programs.
-/
import Idealize.ShloMosaic.PureOps.Ideal
import Idealize.ShloMosaic.Lib.ValueIdx
import proofs.«143241_j37409165148610_2_alg».proof.Proof.LibGcnSum
import proofs.«143241_j37409165148610_2_alg».proof.Proof.LibMatChain

noncomputable section

open scoped BigOperators

namespace Cert.Mlp

open Idealize.ShloMosaic Idealize.ShloMosaic.ValueIdx GcnLib

/-- The zero the rectifiers compare with: the f32 word of all zero bits. -/
abbrev z32 : EReal := Ideal.ofBits .f32 0x00000000#32

/-- That word is a real number (zero). -/
theorem isReal_z32 : IsReal z32 := ⟨0, ofBits_zero_f32⟩

variable (x : (⟨2, ![1048576, 32]⟩ : Shape).Idx → EReal) (w0 : (⟨2, ![64, 32]⟩ : Shape).Idx → EReal)
  (w1 w2 : (⟨2, ![64, 64]⟩ : Shape).Idx → EReal) (w3 : (⟨2, ![16, 64]⟩ : Shape).Idx → EReal)

/-- Entry (r, j) of the hidden layer: row r of x against row j of W0, rectified. -/
def hidden (r : Fin 1048576) (j : Fin 64) : EReal :=
  max (∑ k : Fin 32, x (ix2 r k) * w0 (ix2 j k)) z32

/-- Entry (q, j) of the collapsed weight (W3 · W2) · W1. -/
def w321 (q : Fin 16) (j : Fin 64) : EReal :=
  ∑ b : Fin 64, (∑ a : Fin 64, w3 (ix2 q a) * w2 (ix2 a b)) * w1 (ix2 b j)

/-- Entry (r, q) of the output with the three linear layers collapsed into one matrix. -/
def collapsed (r : Fin 1048576) (q : Fin 16) : EReal :=
  max (∑ j : Fin 64, hidden x w0 r j * w321 w1 w2 w3 q j) z32

/-- Entry (r, q) of the output computed layer by layer. -/
def layered (r : Fin 1048576) (q : Fin 16) : EReal :=
  max (∑ a : Fin 64, (∑ b : Fin 64, (∑ j : Fin 64, hidden x w0 r j * w1 (ix2 b j)) * w2 (ix2 a b)) * w3 (ix2 q a)) z32

/-- The output array as one function of the argument arrays. -/
def net : (⟨2, ![1048576, 16]⟩ : Shape).Idx → EReal := fun i => collapsed x w0 w1 w2 w3 (i 0) (i 1)

/-- The output array at an index whose coordinates are r and q. -/
theorem net_apply (i : (⟨2, ![1048576, 16]⟩ : Shape).Idx) (r : Fin 1048576) (q : Fin 16) (h0 : (i 0).val = r.val)
    (h1 : (i 1).val = q.val) : net x w0 w1 w2 w3 i = collapsed x w0 w1 w2 w3 r q := by
  unfold net
  exact congrArg₂ (collapsed x w0 w1 w2 w3) (Fin.ext h0) (Fin.ext h1)

/-- A hidden entry is a real number when the entries of x and W0 are. -/
theorem isReal_hidden (hx : ∀ i, IsReal (x i)) (h0 : ∀ i, IsReal (w0 i)) (r : Fin 1048576) (j : Fin 64) :
    IsReal (hidden x w0 r j) :=
  isReal_max (isReal_sum_mul _ _ _ (fun _ => hx _) (fun _ => h0 _)) isReal_z32

/-- Layer by layer or collapsed, the output entry is the same for real-valued inputs. -/
theorem layered_eq_collapsed (hx : ∀ i, IsReal (x i)) (h0 : ∀ i, IsReal (w0 i)) (h1 : ∀ i, IsReal (w1 i))
    (h2 : ∀ i, IsReal (w2 i)) (h3 : ∀ i, IsReal (w3 i)) (r : Fin 1048576) (q : Fin 16) :
    layered x w0 w1 w2 w3 r q = collapsed x w0 w1 w2 w3 r q := by
  unfold layered collapsed w321
  exact congrArg (max · z32) (MatChain.chain3 (fun j => hidden x w0 r j) (fun b j => w1 (ix2 b j))
    (fun a b => w2 (ix2 a b)) (fun a => w3 (ix2 q a)) (isReal_hidden x w0 hx h0 r) (fun _ _ => h1 _) (fun _ _ => h2 _)
    (fun _ => h3 _))

end Cert.Mlp

end
-- ==== Proof.RefLayers.lean ====
/-
  The reference program read at an index: entry (r, q) of its result is the layer-by-layer formula.

  The reference transposes each weight and multiplies: x · W0ᵀ, a rectifier, then · W1ᵀ, · W2ᵀ, · W3ᵀ and a last
  rectifier. Read at an index, a product with a transposed weight contracts the SECOND axis of the stored weight:
  (v · Wᵀ)(r, b) = Σ_j v(r, j) · W(b, j). Each stage's index functions are the pairs (r, k), (k, q), and a transposed
  weight at (k, q) is the weight at (q, k); with these the chain of stages is the nested sum of the specification.
-/
import proofs.«143241_j37409165148610_2_alg».proof.Proof.Gen.ReferenceIdeal.Read
import proofs.«143241_j37409165148610_2_alg».proof.Proof.MlpSpec

noncomputable section

open scoped BigOperators

namespace Cert.ReferenceIdeal.RefValue

open Cert.ReferenceIdeal Cert.ReferenceIdeal.Read Idealize.ShloMosaic Idealize.ShloMosaic.ValueIdx

/-! ## The stages' index functions at a pair of coordinates -/

theorem l1 (r : Fin 1048576) (j : Fin 64) (k : Fin 32) : lidx_main_v1 (ix2 r j) k = ix2 r k :=
  funext fun a => Fin.ext (by match a with | ⟨0, _⟩ => rfl | ⟨1, _⟩ => rfl)
theorem r1 (r : Fin 1048576) (j : Fin 64) (k : Fin 32) : ridx_main_v1 (ix2 r j) k = ix2 k j :=
  funext fun a => Fin.ext (by match a with | ⟨0, _⟩ => rfl | ⟨1, _⟩ => rfl)
theorem l4 (r : Fin 1048576) (b : Fin 64) (k : Fin 64) : lidx_main_v4 (ix2 r b) k = ix2 r k :=
  funext fun a => Fin.ext (by match a with | ⟨0, _⟩ => rfl | ⟨1, _⟩ => rfl)
theorem r4 (r : Fin 1048576) (b : Fin 64) (k : Fin 64) : ridx_main_v4 (ix2 r b) k = ix2 k b :=
  funext fun a => Fin.ext (by match a with | ⟨0, _⟩ => rfl | ⟨1, _⟩ => rfl)
theorem l6 (r : Fin 1048576) (b : Fin 64) (k : Fin 64) : lidx_main_v6 (ix2 r b) k = ix2 r k :=
  funext fun a => Fin.ext (by match a with | ⟨0, _⟩ => rfl | ⟨1, _⟩ => rfl)
theorem r6 (r : Fin 1048576) (b : Fin 64) (k : Fin 64) : ridx_main_v6 (ix2 r b) k = ix2 k b :=
  funext fun a => Fin.ext (by match a with | ⟨0, _⟩ => rfl | ⟨1, _⟩ => rfl)
theorem l8 (r : Fin 1048576) (q : Fin 16) (k : Fin 64) : lidx_main_v8 (ix2 r q) k = ix2 r k :=
  funext fun a => Fin.ext (by match a with | ⟨0, _⟩ => rfl | ⟨1, _⟩ => rfl)
theorem r8 (r : Fin 1048576) (q : Fin 16) (k : Fin 64) : ridx_main_v8 (ix2 r q) k = ix2 k q :=
  funext fun a => Fin.ext (by match a with | ⟨0, _⟩ => rfl | ⟨1, _⟩ => rfl)

/-- The transposed first weight at (k, j) is the stored weight at (j, k). -/
theorem t0 (k : Fin 32) (j : Fin 64) : idx_main_v0 (ix2 k j) = ix2 j k :=
  funext fun a => Fin.ext (by match a with | ⟨0, _⟩ => rfl | ⟨1, _⟩ => rfl)
theorem t3 (j : Fin 64) (b : Fin 64) : idx_main_v3 (ix2 j b) = ix2 b j :=
  funext fun a => Fin.ext (by match a with | ⟨0, _⟩ => rfl | ⟨1, _⟩ => rfl)
theorem t5 (b : Fin 64) (a' : Fin 64) : idx_main_v5 (ix2 b a') = ix2 a' b :=
  funext fun a => Fin.ext (by match a with | ⟨0, _⟩ => rfl | ⟨1, _⟩ => rfl)
theorem t7 (a' : Fin 64) (q : Fin 16) : idx_main_v7 (ix2 a' q) = ix2 q a' :=
  funext fun a => Fin.ext (by match a with | ⟨0, _⟩ => rfl | ⟨1, _⟩ => rfl)

/-! ## The stages, innermost first -/

variable (x : FVec Ideal S1048576x32 .f32) (w0 : FVec Ideal S64x32 .f32) (w1 w2 : FVec Ideal S64x64 .f32)
  (w3 : FVec Ideal S16x64 .f32)

/-- The rectified first layer at (r, j) is the specification's hidden entry. -/
theorem v2_apply (r : Fin 1048576) (j : Fin 64) :
    val_main_v2 (F := Ideal) x w0 (ix2 r j) = Cert.Mlp.hidden x w0 r j := by
  rw [val_main_v2_apply, val_main_v1_apply, val_main_call0_v0_apply, val_main_call0_cst_apply]
  unfold Cert.Mlp.hidden
  refine congrArg (max · Cert.Mlp.z32) (Finset.sum_congr rfl fun k _ => ?_)
  rw [l1, r1, val_main_v0_apply, t0]

/-- The second layer at (r, b): the hidden row against row b of W1. -/
theorem v4_apply (r : Fin 1048576) (b : Fin 64) :
    val_main_v4 (F := Ideal) x w0 w1 (ix2 r b) = ∑ j : Fin 64, Cert.Mlp.hidden x w0 r j * w1 (ix2 b j) := by
  rw [val_main_v4_apply]
  refine Finset.sum_congr rfl fun j _ => ?_
  rw [l4, r4, v2_apply, val_main_v3_apply, t3]

/-- The third layer at (r, a). -/
theorem v6_apply (r : Fin 1048576) (a : Fin 64) :
    val_main_v6 (F := Ideal) x w0 w1 w2 (ix2 r a)
      = ∑ b : Fin 64, (∑ j : Fin 64, Cert.Mlp.hidden x w0 r j * w1 (ix2 b j)) * w2 (ix2 a b) := by
  rw [val_main_v6_apply]
  refine Finset.sum_congr rfl fun b _ => ?_
  rw [l6, r6, v4_apply, val_main_v5_apply, t5]

/-- THE REFERENCE AT (r, q): the layer-by-layer formula of the specification. -/
theorem v9_apply (r : Fin 1048576) (q : Fin 16) :
    val_main_v9 (F := Ideal) x w0 w1 w2 w3 (ix2 r q) = Cert.Mlp.layered x w0 w1 w2 w3 r q := by
  rw [val_main_v9_apply, val_main_v8_apply, val_main_call1_v0_apply, val_main_call1_cst_apply]
  unfold Cert.Mlp.layered
  refine congrArg (max · Cert.Mlp.z32) (Finset.sum_congr rfl fun a _ => ?_)
  rw [l8, r8, v6_apply, val_main_v7_apply, t7]

end Cert.ReferenceIdeal.RefValue

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.KernelPoint.lean ====
/-
  What the kernel's body stores, at one index of its block.

  The body multiplies its 8192-row block of x by the 32 × 64 matrix it is handed, rectifies, multiplies by the 64 × 16
  matrix it is handed, and rectifies again; the changes of float format in between are the identity at the extended
  reals, and each product is accumulated into zeros, so it is the plain sum over the contracted axis. Entry (p, q) of
  the stored block is therefore  max(Σ_j max(Σ_k x0(p, k) · x1(k, j), 0) · x2(j, q), 0).
  When the block's row p is row r of x, x1 is W0 transposed, and column q of x2 is row q of the collapsed weight,
  that is the specification's collapsed output at (r, q).
-/
import proofs.«143241_j37409165148610_2_alg».proof.Proof.Gen.KernelIdeal.Skeleton
import proofs.«143241_j37409165148610_2_alg».proof.Proof.LibDot
import proofs.«143241_j37409165148610_2_alg».proof.Proof.MlpSpec
import Idealize.ShloMosaic.Lib.Pipeline.Value

noncomputable section

open scoped BigOperators

namespace Cert.KernelIdeal.PointValue

open Cert.KernelIdeal Cert.KernelIdeal.Gen Idealize.ShloMosaic Idealize.ShloMosaic.ValueIdx

/-- Entry (p, q) of the body's stored block, as nested sums over the loaded blocks. -/
theorem pay_apply (x0 : FVec Ideal S8192x32 .f32) (x1 : FVec Ideal S32x64 .bf16) (x2 : FVec Ideal S64x16 .bf16)
    (p : Fin 8192) (q : Fin 16) :
    k0_pay1 (F := Ideal) x0 x1 x2 (ix2 p q)
      = max (∑ j : Fin 64, max (∑ k : Fin 32, x0 (ix2 p k) * x1 (ix2 k j)) Cert.Mlp.z32 * x2 (ix2 j q)) Cert.Mlp.z32 := by
  unfold k0_pay1
  rw [shapeCast_self, shapeCast_self]
  refine (maximumf_apply _ _ _).trans ?_
  refine congrArg₂ max ?_ rfl
  refine (LibDot.matmul_zero_plain (φ₁ := .bf16) (φ₂ := .bf16) dot_S8192x64_S64x16_S8192x16_1_0_0_1_n_n rfl rfl rfl rfl rfl rfl none _ x2 p q).trans ?_
  refine Finset.sum_congr rfl fun j _ => ?_
  refine congrArg (· * x2 (ix2 j q)) ?_
  refine (truncf_apply (ψ := .bf16) (φ := .f32) _ bitsLt_bf16_f32 (ix2 p j)).trans ((maximumf_apply _ _ _).trans ?_)
  refine congrArg₂ max ?_ rfl
  refine (LibDot.matmul_zero_plain (φ₁ := .bf16) (φ₂ := .bf16) dot_S8192x32_S32x64_S8192x64_1_0_0_1_n_n rfl rfl rfl rfl rfl rfl none _ x1 p j).trans ?_
  exact Finset.sum_congr rfl fun k _ => rfl

/-- THE BODY AT A POINT: entry (p, q) of the stored block is the specification's collapsed output at (r, q), when
    row p of the x block is row r of x, the first matrix is W0 transposed, and column q of the second matrix is row q
    of the collapsed weight. -/
theorem pay_eq_collapsed (x0 : FVec Ideal S8192x32 .f32) (x1 : FVec Ideal S32x64 .bf16) (x2 : FVec Ideal S64x16 .bf16)
    (x : FVec Ideal S1048576x32 .f32) (w0 : FVec Ideal S64x32 .f32) (w1 w2 : FVec Ideal S64x64 .f32)
    (w3 : FVec Ideal S16x64 .f32) (p : Fin 8192) (q : Fin 16) (r : Fin 1048576)
    (h0 : ∀ k : Fin 32, x0 (ix2 p k) = x (ix2 r k))
    (h1 : ∀ (k : Fin 32) (j : Fin 64), x1 (ix2 k j) = w0 (ix2 j k))
    (h2 : ∀ j : Fin 64, x2 (ix2 j q) = Cert.Mlp.w321 w1 w2 w3 q j) :
    k0_pay1 (F := Ideal) x0 x1 x2 (ix2 p q) = Cert.Mlp.collapsed x w0 w1 w2 w3 r q := by
  rw [pay_apply]
  unfold Cert.Mlp.collapsed Cert.Mlp.hidden
  refine congrArg (max · Cert.Mlp.z32) (Finset.sum_congr rfl fun j _ => ?_)
  rw [h2 j]
  refine congrArg (fun s => max s Cert.Mlp.z32 * Cert.Mlp.w321 w1 w2 w3 q j) (Finset.sum_congr rfl fun k _ => ?_)
  rw [h0 k, h1 k j]

end Cert.KernelIdeal.PointValue

end
-- ==== Proof.HostWeights.lean ====
/-
  The two matrices the kernel is handed, as the host operations before the launch computed them.

  Before the launch @main forms (W3 · W2) · W1 (two plain products), transposes it, and transposes W0; both results
  change float format, which is the identity at the extended reals. So when the region is entered
    * the 32 × 64 matrix holds W0 transposed: its entry (k, j) is W0(j, k);
    * the 64 × 16 matrix holds the collapsed weight transposed: its entry (j, q) is
      W321(q, j) = Σ_b (Σ_a W3(q, a) · W2(a, b)) · W1(b, j).
-/
import proofs.«143241_j37409165148610_2_alg».proof.Proof.Gen.KernelIdeal.Frame
import proofs.«143241_j37409165148610_2_alg».proof.Proof.LibDot
import proofs.«143241_j37409165148610_2_alg».proof.Proof.MlpSpec
import Idealize.ShloMosaic.Lib.Pipeline.Value
import Idealize.ShloMosaic.Lib.StableHlo.Run

noncomputable section

open scoped BigOperators

namespace Cert.KernelIdeal.HostWeights

open Cert.KernelIdeal Cert.KernelIdeal.Gen Idealize.ShloMosaic Idealize.ShloMosaic.TcCoe Idealize.SL.Sem
open Idealize.ShloMosaic.ValueIdx Idealize.ShloMosaic.StableHlo

/-! ## The host's terms read at an index -/

/-- W0 transposed (and re-formatted) at (k, j) is W0 at (j, k). -/
theorem w0t_apply (w0 : FVec Ideal S64x32 .f32) (k : Fin 32) (j : Fin 64) :
    (truncf .bf16 (transpose S32x64 [1, 0] w0 transposes_S64x32_S32x64_1_0) bitsLt_bf16_f32 : FVec Ideal S32x64 .bf16) (ix2 k j)
      = w0 (ix2 j k) :=
  (truncf_apply (ψ := .bf16) (φ := .f32) (transpose S32x64 [1, 0] w0 transposes_S64x32_S32x64_1_0) bitsLt_bf16_f32 (ix2 k j)).trans (transpose_apply [1, 0] w0 transposes_S64x32_S32x64_1_0 (ix2 k j) (ix2 j k)
    (fun b => match b with
      | ⟨0, _⟩ => rfl
      | ⟨1, _⟩ => rfl))

/-- (W3 · W2) · W1 transposed (and re-formatted) at (j, q) is the specification's collapsed weight at (q, j). -/
theorem w321t_apply (w1 w2 : FVec Ideal S64x64 .f32) (w3 : FVec Ideal S16x64 .f32) (j : Fin 64) (q : Fin 16) :
    (truncf .bf16 (transpose S64x16 [1, 0]
        (Host.dotGeneral dot_S16x64_S64x64_S16x64_1_0_0_1_n_n none
          (Host.dotGeneral dot_S16x64_S64x64_S16x64_1_0_0_1_n_n none w3 w2) w1)
        transposes_S16x64_S64x16_1_0) bitsLt_bf16_f32 : FVec Ideal S64x16 .bf16) (ix2 j q)
      = Cert.Mlp.w321 w1 w2 w3 q j := by
  refine (truncf_apply (ψ := .bf16) (φ := .f32) _ bitsLt_bf16_f32 (ix2 j q)).trans ((transpose_apply [1, 0] _ transposes_S16x64_S64x16_1_0 (ix2 j q) (ix2 q j)
    (fun b => match b with
      | ⟨0, _⟩ => rfl
      | ⟨1, _⟩ => rfl)).trans ?_)
  unfold Cert.Mlp.w321
  refine (LibDot.dotGeneral_plain dot_S16x64_S64x64_S16x64_1_0_0_1_n_n rfl rfl rfl rfl rfl rfl none _ w1 q j).trans ?_
  refine Finset.sum_congr rfl fun b _ => congrArg (· * w1 (ix2 b j)) ?_
  exact LibDot.dotGeneral_plain dot_S16x64_S64x64_S16x64_1_0_0_1_n_n rfl rfl rfl rfl rfl rfl none w3 w2 q b

/-! ## The arrays as the region finds them -/

variable (m : (ℓ : Loc nD τ sig) → Buf (Elt Ideal) ℓ)

/-- The 32 × 64 matrix at region entry is the host's term of W0. -/
theorem V_w0t (c : Dev nD) :
    @Eq (FVec Ideal S32x64 .bf16) (V m c main_call0_v3)
      (truncf .bf16 (transpose S32x64 [1, 0] (m ((c : Thread nD τ).loc main_arg1) : FVec Ideal S64x32 .f32)
        transposes_S64x32_S32x64_1_0) bitsLt_bf16_f32) := by
  dsimp only [Gen.V, Gen.hostOps0]; after_results; rfl

/-- The 64 × 16 matrix at region entry is the host's term of W3, W2, W1. -/
theorem V_w321t (c : Dev nD) :
    @Eq (FVec Ideal S64x16 .bf16) (V m c main_call0_v5)
      (truncf .bf16 (transpose S64x16 [1, 0]
          (Host.dotGeneral (φ₁ := .f32) (φ₂ := .f32) dot_S16x64_S64x64_S16x64_1_0_0_1_n_n none
            (Host.dotGeneral (φ₁ := .f32) (φ₂ := .f32) dot_S16x64_S64x64_S16x64_1_0_0_1_n_n none
              (m ((c : Thread nD τ).loc main_arg4) : FVec Ideal S16x64 .f32)
              (m ((c : Thread nD τ).loc main_arg3) : FVec Ideal S64x64 .f32))
            (m ((c : Thread nD τ).loc main_arg2) : FVec Ideal S64x64 .f32))
          transposes_S16x64_S64x16_1_0) bitsLt_bf16_f32) := by
  dsimp only [Gen.V, Gen.hostOps0]; after_results; rfl

end Cert.KernelIdeal.HostWeights

end
-- ==== Proof.KernelArray.lean ====
/-
  The kernel's result array after the run, as one function of the argument arrays.

  The grid has 128 points; point t handles rows 8192·t … 8192·t + 8191: its block of x and its block of the output
  are block row t, and the two weight matrices are handed whole at every point. So entry (p, q) of what point t writes
  back is the body's stored entry for row r = 8192·t + p of x, which is the specification's collapsed output at
  (r, q); the 128 output blocks tile the array (row r lies in block r / 8192), so the array ends holding the
  specification's output everywhere.
-/
import proofs.«143241_j37409165148610_2_alg».proof.Proof.Gen.KernelIdeal.Value
import proofs.«143241_j37409165148610_2_alg».proof.Proof.KernelPoint
import proofs.«143241_j37409165148610_2_alg».proof.Proof.HostWeights
import proofs.«143241_j37409165148610_2_alg».proof.Proof.MlpSpec

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 128 grid points: the x block and the output block of point t are block
    row t; the two weight matrices are block (0, 0), the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The specification's output, of the argument arrays as launched. -/
abbrev result (c : Dev nD) : Buf (Elt Ideal) ((c : Thread nD τ).loc main_v0) :=
  Cert.Mlp.net (m ((c : Thread nD τ).loc main_arg0)) (m ((c : Thread nD τ).loc main_arg1))
    (m ((c : Thread nD τ).loc main_arg2)) (m ((c : Thread nD τ).loc main_arg3)) (m ((c : Thread nD τ).loc main_arg4))

/-- WHAT POINT t WRITES BACK is block t of the specification's output. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S8192x32) hz, View.ld_unit_zero (S := S32x64) hz, View.ld_unit_zero (S := S64x16) hz]
  obtain ⟨e00, e01, e10, e11, e20, e21, e30, e31⟩ := idx_facts t
  have ht : t.val < 128 := by
    have h := t.isLt
    have hN : cfg0.N = 128 := N_0
    omega
  funext y
  obtain ⟨p, q, rfl⟩ : ∃ (p : Fin 8192) (q : Fin 16), y = ix2 p q := ⟨y 0, y 1, eq_ix2 y⟩
  have hp : p.val < 8192 := p.isLt
  show k0_pay1 (F := Ideal) (iblk m c 0 t) (iblk m c 1 t) (iblk m c 2 t) (ix2 p q)
    = result m c (((cfg0.win 3).blk t).view.emb (ix2 p q))
  refine (PointValue.pay_eq_collapsed (iblk m c 0 t) (iblk m c 1 t) (iblk m c 2 t)
    (m ((c : Thread nD τ).loc main_arg0)) (m ((c : Thread nD τ).loc main_arg1)) (m ((c : Thread nD τ).loc main_arg2))
    (m ((c : Thread nD τ).loc main_arg3)) (m ((c : Thread nD τ).loc main_arg4)) p q
    ⟨t.val * 8192 + p.val, by omega⟩ ?_ ?_ ?_).trans ?_
  · -- row p of the x block is row 8192·t + p of x
    intro k
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 8192 + 1 * p.val = t.val * 8192 + p.val; rw [e00]; omega
    | ⟨1, _⟩ => show win0_0.index t (1 : Fin 2) * 32 + 1 * k.val = k.val; rw [e01]; omega
  · -- the 32 × 64 matrix is W0 transposed
    intro k j
    show V m c main_call0_v3 (((cfg0.win 1).blk t).view.emb (ix2 k j)) = _
    have he : ((cfg0.win 1).blk t).view.emb (ix2 k j) = ix2 k j := funext fun a => Fin.ext (by
      match a with
      | ⟨0, _⟩ => show win0_1.index t (0 : Fin 2) * 32 + 1 * k.val = k.val; rw [e10]; omega
      | ⟨1, _⟩ => show win0_1.index t (1 : Fin 2) * 64 + 1 * j.val = j.val; rw [e11]; omega)
    rw [he, HostWeights.V_w0t]
    exact HostWeights.w0t_apply _ k j
  · -- column q of the 64 × 16 matrix is row q of the collapsed weight
    intro j
    show V m c main_call0_v5 (((cfg0.win 2).blk t).view.emb (ix2 j q)) = _
    have he : ((cfg0.win 2).blk t).view.emb (ix2 j q) = ix2 j q := funext fun a => Fin.ext (by
      match a with
      | ⟨0, _⟩ => show win0_2.index t (0 : Fin 2) * 64 + 1 * j.val = j.val; rw [e20]; omega
      | ⟨1, _⟩ => show win0_2.index t (1 : Fin 2) * 16 + 1 * q.val = q.val; rw [e21]; omega)
    rw [he, HostWeights.V_w321t]
    exact HostWeights.w321t_apply _ _ _ j q
  · -- the output block's entry (p, q) sits at row 8192·t + p, column q of the array
    refine (Cert.Mlp.net_apply _ _ _ _ _ _ _ q ?_ ?_).symm
    · show win0_3.index t (0 : Fin 2) * 8192 + 1 * p.val = t.val * 8192 + p.val; rw [e30]; omega
    · show win0_3.index t (1 : Fin 2) * 16 + 1 * q.val = q.val; rw [e31]; omega

/-- An index of the array is in point t's block iff each coordinate is in the block's range on its axis. -/
theorem mem_blk (t : Fin cfg0.N) (i : S1048576x16.Idx) :
    i ∈ ((cfg0.win 3).blk t).view.set ↔ ∀ a : Fin 2, win0_3.index t a * S8192x16.size a ≤ (i a).val
      ∧ (i a).val < win0_3.index t a * S8192x16.size a + S8192x16.size a := by
  show i ∈ ((View.whole main_v0).slice (win0_3.rect t)).set ↔ _
  rw [View.set_slice_whole, Rect.mem_set_unit]
  exact Iff.rfl

/-- THE COVER: row r of the array lies in the block of point r / 8192. -/
theorem cover (i : S1048576x16.Idx) :
    ∃ t : Fin cfg0.N, (cfg0.win 3).flush t = true ∧ i ∈ ((cfg0.win 3).blk t).view.set := by
  have hi0 : (i 0).val < 1048576 := (i 0).isLt
  have hi1 : (i 1).val < 16 := (i 1).isLt
  obtain ⟨t, ht⟩ : ∃ t : Fin cfg0.N, t.val = (i 0).val / 8192 :=
    ⟨⟨(i 0).val / 8192, by rw [show cfg0.N = 128 from N_0]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    rw [e30, ht]; omega
  | ⟨1, _⟩ =>
    show win0_3.index t (1 : Fin 2) * 16 ≤ (i 1).val ∧ (i 1).val < win0_3.index t (1 : Fin 2) * 16 + 16
    rw [e31]; omega

/-- THE ARRAY after the run is the specification's output. -/
theorem final (c : Dev nD) : (dats m 0 c).arrAt 3 cfg0.N = result m c :=
  (dats m 0 c).arrAt_eq_of_cover 3 (result m c) (fun t _ => flushed_eq m c t) cover

/-- The kernel's run, read: the result array at the specification's output of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.WholeArray

end
-- ==== Proof.FiniteInputs.lean ====
/-
  The precondition, decoded: every entry of every input array is a real number.

  The precondition is the conjunction, over the five inputs, of "every entry has |v| < +∞", each conjunct a reduction
  by "and" of the entrywise comparison. A conjunction that is 1 has every conjunct 1; a reduction by "and" into one
  cell that is 1 had a 1 at every entry; and an extended real v with max(v, -v) < +∞ is neither +∞ nor -∞, so it is
  a real number.
-/
import proofs.«143241_j37409165148610_2_alg».proof.Pre_finite_inputs
import Idealize.ShloMosaic.PureOps.Ideal
import Idealize.ShloMosaic.Lib.ValueIdx
import Idealize.ShloMosaic.Lib.ReduceAll
import Idealize.ShloMosaic.Lib.Affine
import proofs.«143241_j37409165148610_2_alg».proof.Proof.LibGcnSum

noncomputable section

namespace Cert.FiniteInputs

open Idealize.ShloMosaic GcnLib

/-- The f32 word 0x7F800000 is +∞. -/
theorem ofBits_inf : Ideal.ofBits .f32 0x7F800000#32 = (⊤ : EReal) := by simp [Ideal.ofBits, Ideal.ieee]

/-- An extended real whose absolute value is below +∞ is a real number. -/
theorem isReal_of_abs_lt_top (v : EReal) (h : max v (-v) < (⊤ : EReal)) : IsReal v := by
  induction v using EReal.rec with
  | bot => simp at h
  | coe r => exact ⟨r, rfl⟩
  | top => simp at h

/-- The comparison the precondition makes at one entry, when it answers 1, says the entry is a real number. -/
theorem isReal_of_cmp (v : EReal)
    (h : Ideal.cmp .olt (max v (-v)) (Ideal.ofBits .f32 0x7F800000#32) = 1#1) : IsReal v := by
  refine isReal_of_abs_lt_top v ?_
  rw [ofBits_inf] at h
  unfold Ideal.cmp at h
  by_contra hn
  simp [hn] at h

instance : Subsingleton Cert.Pre_finite_inputs.S_.Idx := ⟨fun _ _ => funext fun d => d.elim0⟩

variable [Cert.Pre_finite_inputs.Facts]

open Cert.Pre_finite_inputs in
/-- THE PRECONDITION DECODED: if the printed predicate is all ones on the five arrays, every entry of each is a
    real number. -/
theorem isReal_of_pre (a0 : FVec Ideal S1048576x32 .f32) (a1 : FVec Ideal S64x32 .f32) (a2 a3 : FVec Ideal S64x64 .f32)
    (a4 : FVec Ideal S16x64 .f32) (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [Cert.Pre_finite_inputs.fn, Cert.Pre_finite_inputs.fn_part1, andi] at h0
  simp only [IntOp.andi_eq_one] at h0
  obtain ⟨⟨⟨⟨e0, e1⟩, e2⟩, e3⟩, e4⟩ := h0
  exact ⟨fun i => isReal_of_cmp _ (Host.reduce_andi_all _ _ _ _ _ e0 i),
    fun i => isReal_of_cmp _ (Host.reduce_andi_all _ _ _ _ _ e1 i),
    fun i => isReal_of_cmp _ (Host.reduce_andi_all _ _ _ _ _ e2 i),
    fun i => isReal_of_cmp _ (Host.reduce_andi_all _ _ _ _ _ e3 i),
    fun i => isReal_of_cmp _ (Host.reduce_andi_all _ _ _ _ _ e4 i)⟩

end Cert.FiniteInputs

end
-- ==== Proof.lean ====
/-
  A four-layer bias-free perceptron, out = relu(((relu(x · W0ᵀ) · W1ᵀ) · W2ᵀ) · W3ᵀ), on 1048576 rows.

  The reference applies the four weights one after the other. The kernel's program first collapses the three linear
  layers that have no activation between them into one matrix W321 = (W3 · W2) · W1 on the host, and its kernel then
  computes relu(relu(x · W0ᵀ) · W321ᵀ) on blocks of 8192 rows, the 128 blocks tiling the result.

  At the extended reals the changes of float format are the identity and every product is the plain sum over the
  contracted axis, so, index by index:
    reference(r, q) = max(Σ_a (Σ_b (Σ_j h(r, j) · W1(b, j)) · W2(a, b)) · W3(q, a), 0),
    kernel(r, q)    = max(Σ_j h(r, j) · (Σ_b (Σ_a W3(q, a) · W2(a, b)) · W1(b, j)), 0),
  with h(r, j) = max(Σ_k x(r, k) · W0(j, k), 0). The two are equal by re-association of the matrix chain: both inner
  sums are the triple sum Σ_{a,b,j} h(r, j) · W1(b, j) · W2(a, b) · W3(q, a). That law uses distributivity, which the
  extended reals lose at the infinities, so the proof uses the precondition: every input entry is finite, hence a
  real number, and then so is every h(r, j).

  The modules: MlpSpec (the two formulas and their equality), LibMatChain (the chain law), RefLayers (the reference read
  at an index), KernelPoint (the kernel body's stored entry), HostWeights (the matrices the host hands the kernel),
  KernelArray (the blocks tile the result array), FiniteInputs (the precondition decoded). The three frame claims are
  the generated runs; nothing was rewritten by the idealization, so the kernel is its own idealization.
-/
import proofs.«143241_j37409165148610_2_alg».proof.Defs
import proofs.«143241_j37409165148610_2_alg».proof.Proof.Gen.Kernel
import proofs.«143241_j37409165148610_2_alg».proof.Proof.Gen.Kernel.Frame
import proofs.«143241_j37409165148610_2_alg».proof.Proof.Gen.KernelIdeal
import proofs.«143241_j37409165148610_2_alg».proof.Proof.Gen.KernelIdeal.Frame
import proofs.«143241_j37409165148610_2_alg».proof.Proof.Gen.KernelIdeal.Value
import proofs.«143241_j37409165148610_2_alg».proof.Proof.Gen.ReferenceIdeal
import proofs.«143241_j37409165148610_2_alg».proof.Proof.Gen.ReferenceIdeal.Run
import proofs.«143241_j37409165148610_2_alg».proof.Proof.Gen.ReferenceIdeal.Read
import proofs.«143241_j37409165148610_2_alg».proof.Proof.Gen.Pre_finite_inputs
import proofs.«143241_j37409165148610_2_alg».proof.Proof.MlpSpec
import proofs.«143241_j37409165148610_2_alg».proof.Proof.RefLayers
import proofs.«143241_j37409165148610_2_alg».proof.Proof.KernelArray
import proofs.«143241_j37409165148610_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments unchanged: the generated frame. -/
theorem frame_k : Cert.frame_Kernel := fun m ρ _ => Cert.Kernel.Gen.frame m ρ

/-- The same program read at the extended reals. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel's result array ends at the collapsed formula and the
    reference's at the layer-by-layer formula of the same arrays: equal entry by entry, by the chain law for
    real-valued entries. -/
theorem algebraic : Cert.algebraic_KernelIdeal_ReferenceIdeal := by
  intro m ρ m' ρ' hpre hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨r0, r1, r2, r3, r4⟩ := Cert.FiniteInputs.isReal_of_pre _ _ _ _ _ (hpre c)
  rw [a0, a1, a2, a3, a4]
  refine (Cert.ReferenceIdeal.Read.val_main_v9_eq (F := Ideal) _ _ _ _ _).trans ?_
  funext i
  obtain ⟨r, q, rfl⟩ : ∃ (r : Fin 1048576) (q : Fin 16), i = ix2 r q := ⟨i 0, i 1, eq_ix2 i⟩
  rw [Cert.ReferenceIdeal.RefValue.v9_apply, Cert.Mlp.layered_eq_collapsed _ _ _ _ _ r0 r1 r2 r3 r4]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
